-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x16x2048x64 : Shape := ⟨4, ![1, 16, 2048, 64]⟩
abbrev S1x16x2048x2048 : Shape := ⟨4, ![1, 16, 2048, 2048]⟩
abbrev S_ : Shape := ⟨0, ![]⟩

class Facts : Prop where
  bcast_S_S1x16x2048x64 : S_.BroadcastsInDim S1x16x2048x64 (![] : Fin 0 → Fin S1x16x2048x64.rank)
  reducesTo_S1x16x2048x64_S_d0_1_2_3 : S1x16x2048x64.ReducesTo [0, 1, 2, 3] S_
  h_S_ : 0 < S_.numel
  bcast_S_S1x16x2048x2048 : S_.BroadcastsInDim S1x16x2048x2048 (![] : Fin 0 → Fin S1x16x2048x2048.rank)
  reducesTo_S1x16x2048x2048_S_d0_1_2_3 : S1x16x2048x2048.ReducesTo [0, 1, 2, 3] S_

variable [Facts]

def fn_part1 {F : FTy → Type} [FloatOps F] (main_v13 : IVec S_ 1) (main_v16 : IVec S1x16x2048x2048 1) : IVec S_ 1 :=
  let main_c_5 : IVec S_ 1 := constantI S_ 1 1#1
  let main_v17 : IVec S_ 1 := (fun x v => Host.reduce IntOp.andi x v reducesTo_S1x16x2048x2048_S_d0_1_2_3 h_S_) main_v16 main_c_5
  let main_v18 : IVec S_ 1 := andi main_v13 main_v17
  main_v18

def fn {F : FTy → Type} [FloatOps F] (main_arg0 : FVec F S1x16x2048x64 .f32) (main_arg1 : FVec F S1x16x2048x64 .f32) (main_arg2 : FVec F S1x16x2048x64 .f32) (main_arg3 : FVec F S1x16x2048x2048 .f32) : IVec S_ 1 :=
  let main_v0 : FVec F S1x16x2048x64 .f32 := Host.absf main_arg0
  let main_cst : FVec F S_ .f32 := constant S_ .f32 0x7F800000#32
  let main_v1 : FVec F S1x16x2048x64 .f32 := broadcastInDim S1x16x2048x64 ![] bcast_S_S1x16x2048x64 main_cst
  let main_v2 : IVec S1x16x2048x64 1 := cmpf .olt main_v0 main_v1
  let main_c : IVec S_ 1 := constantI S_ 1 1#1
  let main_v3 : IVec S_ 1 := (fun x v => Host.reduce IntOp.andi x v reducesTo_S1x16x2048x64_S_d0_1_2_3 h_S_) main_v2 main_c
  let main_v4 : FVec F S1x16x2048x64 .f32 := Host.absf main_arg1
  let main_cst_0 : FVec F S_ .f32 := constant S_ .f32 0x7F800000#32
  let main_v5 : FVec F S1x16x2048x64 .f32 := broadcastInDim S1x16x2048x64 ![] bcast_S_S1x16x2048x64 main_cst_0
  let main_v6 : IVec S1x16x2048x64 1 := cmpf .olt main_v4 main_v5
  let main_c_1 : IVec S_ 1 := constantI S_ 1 1#1
  let main_v7 : IVec S_ 1 := (fun x v => Host.reduce IntOp.andi x v reducesTo_S1x16x2048x64_S_d0_1_2_3 h_S_) main_v6 main_c_1
  let main_v8 : IVec S_ 1 := andi main_v3 main_v7
  let main_v9 : FVec F S1x16x2048x64 .f32 := Host.absf main_arg2
  let main_cst_2 : FVec F S_ .f32 := constant S_ .f32 0x7F800000#32
  let main_v10 : FVec F S1x16x2048x64 .f32 := broadcastInDim S1x16x2048x64 ![] bcast_S_S1x16x2048x64 main_cst_2
  let main_v11 : IVec S1x16x2048x64 1 := cmpf .olt main_v9 main_v10
  let main_c_3 : IVec S_ 1 := constantI S_ 1 1#1
  let main_v12 : IVec S_ 1 := (fun x v => Host.reduce IntOp.andi x v reducesTo_S1x16x2048x64_S_d0_1_2_3 h_S_) main_v11 main_c_3
  let main_v13 : IVec S_ 1 := andi main_v8 main_v12
  let main_v14 : FVec F S1x16x2048x2048 .f32 := Host.absf main_arg3
  let main_cst_4 : FVec F S_ .f32 := constant S_ .f32 0x7F800000#32
  let main_v15 : FVec F S1x16x2048x2048 .f32 := broadcastInDim S1x16x2048x2048 ![] bcast_S_S1x16x2048x2048 main_cst_4
  let main_v16 : IVec S1x16x2048x2048 1 := cmpf .olt main_v14 main_v15
  fn_part1 (F := F) main_v13 main_v16
-- ==== Kernel.lean ====
abbrev S1x16x2048x64 : Shape := ⟨4, ![1, 16, 2048, 64]⟩
abbrev S1x16x2048x2048 : Shape := ⟨4, ![1, 16, 2048, 2048]⟩
abbrev S1x1x512x64 : Shape := ⟨4, ![1, 1, 512, 64]⟩
abbrev S1x1x2048x64 : Shape := ⟨4, ![1, 1, 2048, 64]⟩
abbrev S1x1x512x2048 : Shape := ⟨4, ![1, 1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 12
  | .smem => 0
  | _ => 0

abbrev bufTy : (tb : Table) → Fin (tcTables nBuf tb) → BufTy
  | .hbm, ⟨0, _⟩ => ⟨S1x16x2048x64, .f32⟩
  | .hbm, ⟨1, _⟩ => ⟨S1x16x2048x64, .f32⟩
  | .hbm, ⟨2, _⟩ => ⟨S1x16x2048x64, .f32⟩
  | .hbm, ⟨3, _⟩ => ⟨S1x16x2048x2048, .f32⟩
  | .hbm, ⟨4, _⟩ => ⟨S1x16x2048x64, .f32⟩
  | .hbm, ⟨5, _⟩ => ⟨S1x16x2048x2048, .f32⟩
  | .local _ .vmem, ⟨0, _⟩ => ⟨S1x1x512x64, .f32⟩
  | .local _ .vmem, ⟨1, _⟩ => ⟨S1x1x512x64, .f32⟩
  | .local _ .vmem, ⟨2, _⟩ => ⟨S1x1x2048x64, .f32⟩
  | .local _ .vmem, ⟨3, _⟩ => ⟨S1x1x2048x64, .f32⟩
  | .local _ .vmem, ⟨4, _⟩ => ⟨S1x1x2048x64, .f32⟩
  | .local _ .vmem, ⟨5, _⟩ => ⟨S1x1x2048x64, .f32⟩
  | .local _ .vmem, ⟨6, _⟩ => ⟨S1x1x512x2048, .f32⟩
  | .local _ .vmem, ⟨7, _⟩ => ⟨S1x1x512x2048, .f32⟩
  | .local _ .vmem, ⟨8, _⟩ => ⟨S1x1x512x64, .f32⟩
  | .local _ .vmem, ⟨9, _⟩ => ⟨S1x1x512x64, .f32⟩
  | .local _ .vmem, ⟨10, _⟩ => ⟨S1x1x512x2048, .f32⟩
  | .local _ .vmem, ⟨11, _⟩ => ⟨S1x1x512x2048, .f32⟩
  | _, _ => ⟨S1x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S1x1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  bitsLt_bf16_f32 : FTy.bits .bf16 < FTy.bits .f32
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  shapeCasts_S1x1x512x2048_S512x2048 : S1x1x512x2048.ShapeCasts S512x2048
  reduces_S512x2048_S512 : S512x2048.Reduces [1] S512
  shapeCasts_S512_S512x1 : S512.ShapeCasts S512x1
  broadcasts_S512x1_S512x2048 : S512x1.Broadcasts S512x2048
  shapeCasts_S512x2048_S1x1x512x2048 : S512x2048.ShapeCasts S1x1x512x2048
  shapeCasts_S512x64_S1x1x512x64 : S512x64.ShapeCasts S1x1x512x64
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x64.size a ≤ S1x16x2048x64.size a
  hwx0_0 : ∀ i : grid0.Coords, EltTy.bits .f32 = 32 ∨ (Rect.block (s := S1x16x2048x64) S1x1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S1x16x2048x64.size a
  hwx0_1 : ∀ i : grid0.Coords, EltTy.bits .f32 = 32 ∨ (Rect.block (s := S1x16x2048x64) S1x1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S1x16x2048x64.size a
  hwx0_2 : ∀ i : grid0.Coords, EltTy.bits .f32 = 32 ∨ (Rect.block (s := S1x16x2048x64) S1x1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512x2048.size a ≤ S1x16x2048x2048.size a
  hwx0_3 : ∀ i : grid0.Coords, EltTy.bits .f32 = 32 ∨ (Rect.block (s := S1x16x2048x2048) S1x1x512x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512x64.size a ≤ S1x16x2048x64.size a
  hwx0_4 : ∀ i : grid0.Coords, EltTy.bits .f32 = 32 ∨ (Rect.block (s := S1x16x2048x64) S1x1x512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512x2048.size a ≤ S1x16x2048x2048.size a
  hwx0_5 : ∀ i : grid0.Coords, EltTy.bits .f32 = 32 ∨ (Rect.block (s := S1x16x2048x2048) S1x1x512x2048.size (cc0_transform_5 i) (hinb0_5 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x1x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1x16x2048x64 : Shape := ⟨4, ![1, 16, 2048, 64]⟩
abbrev S1x16x2048x2048 : Shape := ⟨4, ![1, 16, 2048, 2048]⟩
abbrev S_ : Shape := ⟨0, ![]⟩
abbrev S1x16x2048 : Shape := ⟨3, ![1, 16, 2048]⟩
abbrev S1x16x2048x1 : Shape := ⟨4, ![1, 16, 2048, 1]⟩

abbrev nBuf : Space → Nat
  | .hbm => 29
  | .vmem => 0
  | .smem => 0
  | _ => 0

abbrev bufTy : (tb : Table) → Fin (tcTables nBuf tb) → BufTy
  | .hbm, ⟨0, _⟩ => ⟨S1x16x2048x64, .f32⟩
  | .hbm, ⟨1, _⟩ => ⟨S1x16x2048x64, .f32⟩
  | .hbm, ⟨2, _⟩ => ⟨S1x16x2048x64, .f32⟩
  | .hbm, ⟨3, _⟩ => ⟨S1x16x2048x2048, .f32⟩
  | .hbm, ⟨4, _⟩ => ⟨S1x16x2048x2048, .f32⟩
  | .hbm, ⟨5, _⟩ => ⟨S_, .f32⟩
  | .hbm, ⟨6, _⟩ => ⟨S1x16x2048x2048, .f32⟩
  | .hbm, ⟨7, _⟩ => ⟨S1x16x2048x2048, .f32⟩
  | .hbm, ⟨8, _⟩ => ⟨S_, .f32⟩
  | .hbm, ⟨9, _⟩ => ⟨S1x16x2048x2048, .f32⟩
  | .hbm, ⟨10, _⟩ => ⟨S1x16x2048x2048, .i1⟩
  | .hbm, ⟨11, _⟩ => ⟨S_, .f32⟩
  | .hbm, ⟨12, _⟩ => ⟨S1x16x2048x2048, .f32⟩
  | .hbm, ⟨13, _⟩ => ⟨S1x16x2048x2048, .f32⟩
  | .hbm, ⟨14, _⟩ => ⟨S_, .f32⟩
  | .hbm, ⟨15, _⟩ => ⟨S1x16x2048, .f32⟩
  | .hbm, ⟨16, _⟩ => ⟨S_, .f32⟩
  | .hbm, ⟨17, _⟩ => ⟨S1x16x2048, .f32⟩
  | .hbm, ⟨18, _⟩ => ⟨S1x16x2048, .f32⟩
  | .hbm, ⟨19, _⟩ => ⟨S1x16x2048x1, .f32⟩
  | .hbm, ⟨20, _⟩ => ⟨S1x16x2048x2048, .f32⟩
  | .hbm, ⟨21, _⟩ => ⟨S1x16x2048x2048, .f32⟩
  | .hbm, ⟨22, _⟩ => ⟨S1x16x2048x2048, .f32⟩
  | .hbm, ⟨23, _⟩ => ⟨S_, .f32⟩
  | .hbm, ⟨24, _⟩ => ⟨S1x16x2048, .f32⟩
  | .hbm, ⟨25, _⟩ => ⟨S1x16x2048x1, .f32⟩
  | .hbm, ⟨26, _⟩ => ⟨S1x16x2048x2048, .f32⟩
  | .hbm, ⟨27, _⟩ => ⟨S1x16x2048x2048, .f32⟩
  | .hbm, ⟨28, _⟩ => ⟨S1x16x2048x64, .f32⟩
  | _, _ => ⟨S1x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_call0_v0 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_cst_3 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩

abbrev nD : Nat := 1
abbrev τ : Topo := Topo.v7x

variable {F : FTy → Type} [FloatOps F]

class Facts₀ : Prop where
  bcast_S_S1x16x2048x2048 : S_.BroadcastsInDim S1x16x2048x2048 (![] : Fin 0 → Fin S1x16x2048x2048.rank)
  reducesTo_S1x16x2048x2048_S1x16x2048_d3 : S1x16x2048x2048.ReducesTo [3] S1x16x2048
  h_S_ : 0 < S_.numel
  bcast_S_S1x16x2048 : S_.BroadcastsInDim S1x16x2048 (![] : Fin 0 → Fin S1x16x2048.rank)
  bcast_S1x16x2048_S1x16x2048x1_0_1_2 : S1x16x2048.BroadcastsInDim S1x16x2048x1 (![0, 1, 2] : Fin 3 → Fin S1x16x2048x1.rank)
  bcast_S1x16x2048x1_S1x16x2048x2048_0_1_2_3 : S1x16x2048x1.BroadcastsInDim S1x16x2048x2048 (![0, 1, 2, 3] : Fin 4 → Fin S1x16x2048x2048.rank)
  dot_S1x16x2048x64_S1x16x2048x64_S1x16x2048x2048_3_3_2_2_01_01_wf : DotDims.WF S1x16x2048x64 S1x16x2048x64 S1x16x2048x2048 [3] [3] [2] [2] [0, 1] [0, 1]
  dot_S1x16x2048x2048_S1x16x2048x64_S1x16x2048x64_3_2_2_3_01_01_wf : DotDims.WF S1x16x2048x2048 S1x16x2048x64 S1x16x2048x64 [3] [2] [2] [3] [0, 1] [0, 1]

variable [Facts₀]

def dot_S1x16x2048x64_S1x16x2048x64_S1x16x2048x2048_3_3_2_2_01_01 : DotDims S1x16x2048x64 S1x16x2048x64 S1x16x2048x2048 where
  lhsContracting := [3]
  rhsContracting := [3]
  lhsNonContracting := [2]
  rhsNonContracting := [2]
  lhsBatch := [0, 1]
  rhsBatch := [0, 1]
  wf := dot_S1x16x2048x64_S1x16x2048x64_S1x16x2048x2048_3_3_2_2_01_01_wf
def dot_S1x16x2048x2048_S1x16x2048x64_S1x16x2048x64_3_2_2_3_01_01 : DotDims S1x16x2048x2048 S1x16x2048x64 S1x16x2048x64 where
  lhsContracting := [3]
  rhsContracting := [2]
  lhsNonContracting := [2]
  rhsNonContracting := [3]
  lhsBatch := [0, 1]
  rhsBatch := [0, 1]
  wf := dot_S1x16x2048x2048_S1x16x2048x64_S1x16x2048x64_3_2_2_3_01_01_wf

class Facts : Prop extends Facts₀ where

variable [Facts]
-- ==== Proof.Attn.lean ====
/-
  Masked scaled-dot-product attention over the extended reals: the one function both programs compute.

  For a batch b, head h, query row i and key row j,
    score(b,h,i,j) = −1000                                   where mask(b,h,i,j) = 0,
                     (∑_d q(b,h,i,d) · k(b,h,j,d)) · 0.125    elsewhere;
  the attention weights are the softmax of a row of scores, taken with the row maximum subtracted,
    attn(b,h,i,j) = exp(score_j − m) / ∑_j' exp(score_j' − m),   m = max_j score_j (from −∞),
  and the output is the weighted sum of the value rows, out(b,h,i,d) = ∑_j attn(b,h,i,j) · v(b,h,j,d).
  The three float literals are kept as their f32 words; every operation is the exact one on the extended reals.
-/
import Idealize.ShloMosaic.PureOps.Ideal.Laws
import Idealize.ShloMosaic.Lib.ValueIdx

noncomputable section

namespace Cert.Attn

open Idealize.ShloMosaic Idealize.ShloMosaic.ValueIdx

/-- −∞, as the f32 word both programs start a row maximum from. -/
abbrev negInf : EReal := Ideal.ofBits .f32 0xFF800000#32

/-- One masked, scaled score from a query row, a key row and the mask entry. -/
def score (qr kr : Fin 64 → EReal) (mk : EReal) : EReal :=
  Scalar.select (Ideal.cmp .oeq mk (Ideal.ofBits .f32 0x00000000#32)) (Ideal.ofBits .f32 0xC47A0000#32)
    ((∑ d : Fin 64, qr d * kr d) * Ideal.ofBits .f32 0x3E000000#32)

/-- The maximum of a row, from −∞. -/
def rowMax {n : Nat} (s : Fin n → EReal) : EReal := (Finset.univ : Finset (Fin n)).fold max negInf s

/-- The softmax of a row, with the row maximum subtracted before the exponential. -/
def softmax {n : Nat} (s : Fin n → EReal) (j : Fin n) : EReal :=
  Ideal.div (Ideal.exp (s j - rowMax s)) (∑ j' : Fin n, Ideal.exp (s j' - rowMax s))

/-- A row maximum is at least the −∞ it starts from, so taking the maximum with −∞ once more changes nothing. -/
theorem max_negInf_rowMax {n : Nat} (s : Fin n → EReal) : max negInf (rowMax s) = rowMax s :=
  max_eq_right ((Finset.le_fold_max negInf).2 (Or.inl le_rfl))

/-- The arrays: queries, keys, values and the output are 1 × 16 × 2048 × 64; the mask and the weights 1 × 16 × 2048 × 2048. -/
abbrev QKV : Shape := ⟨4, ![1, 16, 2048, 64]⟩
abbrev Sq : Shape := ⟨4, ![1, 16, 2048, 2048]⟩

/-- The row of scores of query row (b, h, i). -/
def scores (q k : QKV.Idx → EReal) (mask : Sq.Idx → EReal) (b : Fin 1) (h : Fin 16) (i : Fin 2048) : Fin 2048 → EReal :=
  fun j => score (fun d => q (ix4 b h i d)) (fun d => k (ix4 b h j d)) (mask (ix4 b h i j))

/-- The attention weights. -/
def attn (q k : QKV.Idx → EReal) (mask : Sq.Idx → EReal) : Sq.Idx → EReal :=
  fun x => softmax (scores q k mask (x 0) (x 1) (x 2)) (x 3)

/-- The output: each query row's weighted sum of the value rows. -/
def out (q k v : QKV.Idx → EReal) (mask : Sq.Idx → EReal) : QKV.Idx → EReal :=
  fun x => ∑ j : Fin 2048, attn q k mask (ix4 (x 0) (x 1) (x 2) j) * v (ix4 (x 0) (x 1) j (x 3))

theorem attn_apply (q k : QKV.Idx → EReal) (mask : Sq.Idx → EReal) (b : Fin 1) (h : Fin 16) (i j : Fin 2048) :
    attn q k mask (ix4 b h i j) = softmax (scores q k mask b h i) j := rfl

theorem out_apply (q k v : QKV.Idx → EReal) (mask : Sq.Idx → EReal) (b : Fin 1) (h : Fin 16) (i : Fin 2048) (d : Fin 64) :
    out q k v mask (ix4 b h i d) = ∑ j : Fin 2048, attn q k mask (ix4 b h i j) * v (ix4 b h j d) := rfl

end Cert.Attn

end
-- ==== Proof.LibRowOps.lean ====
/-
  Rows of a matrix, at the exact extended-real reading of the float operations.

  • Layout: a length-a vector viewed as an a × 1 column reads entry i at (i, 0); an a × 1 column broadcast along its
    rows to a × b reads (i, 0) at every (i, c); a 1 × 1 × a × b block viewed as an a × b matrix, and back.
  • Reductions along a row: the sum of an a × b matrix over its second axis is, at row r, the sum over k < b of the
    entries (r, k); its maximum from a starting value is the fold of `max` over the same entries.
  • The same for the last axis of a rank-4 array reduced on the host: at (x, y, z) the fold, from the initial value,
    over k of the entries (x, y, z, k).
-/
import Idealize.ShloMosaic.Lib.Pipeline.Value
import Idealize.ShloMosaic.Lib.ValueIdx
import Idealize.ShloMosaic.PureOps.Ideal.Laws

noncomputable section

namespace Cert.LibRowOps

open Idealize.ShloMosaic Idealize.ShloMosaic.ValueIdx

variable {α : Type}

/-! ## Layout -/

/-- A length-a vector cast to an a × 1 column reads, at (i, u), entry i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a × 1 column broadcast to a × b reads, at (p, c), the column's entry (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A 1 × 1 × a × b block cast to an a × b matrix reads, at (i, j), the block's entry (0, 0, i, j). -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An a × b matrix cast to a 1 × 1 × a × b block reads, at (u, w, i, j), the matrix's entry (i, j). -/
theorem shapeCast_ab_11ab_apply {a b : ℕ} (x : (⟨2, ![a, b]⟩ : Shape).Idx → α)
    (h : (⟨2, ![a, b]⟩ : Shape).ShapeCasts ⟨4, ![1, 1, a, b]⟩) (u w : Fin 1) (i : Fin a) (j : Fin b) :
    shapeCast ⟨4, ![1, 1, a, b]⟩ x h (ix4 u w i j) = x (ix2 i j) :=
  shapeCast_apply x h _ _ (by
    have hu : u.val = 0 := by omega
    have hw : w.val = 0 := by omega
    rw [Shape.rowMajor_val_two, Shape.rowMajor_val_four]
    show i.val * b + j.val = ((u.val * 1 + w.val) * a + i.val) * b + j.val
    rw [hu, hw]
    simp only [Nat.zero_mul, Nat.zero_add])

/-! ## Reductions along the rows of a matrix -/

/-- Row r of the matrix with coordinate k inserted on the reduced axis is the entry (r, k). -/
theorem lift_row {a b : ℕ} (h : (⟨2, ![a, b]⟩ : Shape).Reduces [1] ⟨1, ![a]⟩) (r : Fin a) (k : Fin b) :
    h.lift (ix1 r) k = ix2 r k := by
  funext c; apply Fin.ext
  match c with
  | ⟨0, _⟩ => rfl
  | ⟨1, _⟩ => rfl

/-- The sum of a matrix over its second axis, at row r: the sum over k of the entries (r, k). -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_row h r k))

/-- The maximum of a matrix over its second axis, at row r: the fold of `max`, from the starting word's value, over
    the entries (r, k). -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) :=
  (Ideal.multiReduction_maximumf_single src acc h hφ hacc (ix1 r)).trans
    (congrArg (fun f : Fin b → EReal => (Finset.univ : Finset (Fin b)).fold max (Ideal.ofBits φ acc) f)
      (funext fun k => congrArg src (lift_row h r k)))

/-! ## A host reduction along the last axis of a rank-4 array -/

/-- (x, y, z) with coordinate k inserted on the last axis is (x, y, z, k). -/
theorem lift_last4 {n0 n1 n2 n3 : ℕ} (h : (⟨4, ![n0, n1, n2, n3]⟩ : Shape).Reduces [3] ⟨3, ![n0, n1, n2]⟩)
    (x : Fin n0) (y : Fin n1) (z : Fin n2) (k : Fin n3) : h.lift (ix3 x y z) k = ix4 x y z k := by
  funext c; apply Fin.ext
  match c with
  | ⟨0, _⟩ => rfl
  | ⟨1, _⟩ => rfl
  | ⟨2, _⟩ => rfl
  | ⟨3, _⟩ => rfl

/-- A host reduction by `max` along the last axis of a rank-4 array, at (x, y, z): the fold of `max`, from the initial
    value, over the entries (x, y, z, k). -/
theorem hostMax_last4_apply {n0 n1 n2 n3 : ℕ} {u : Shape} (src : (⟨4, ![n0, n1, n2, n3]⟩ : Shape).Idx → EReal) (init : u.Idx → EReal)
    (h' : (⟨4, ![n0, n1, n2, n3]⟩ : Shape).ReducesTo [3] ⟨3, ![n0, n1, n2]⟩)
    (h : (⟨4, ![n0, n1, n2, n3]⟩ : Shape).Reduces [3] ⟨3, ![n0, n1, n2]⟩) (hu : 0 < u.numel)
    (x : Fin n0) (y : Fin n1) (z : Fin n2) :
    Host.reduce (max : EReal → EReal → EReal) src init h' hu (ix3 x y z)
      = (Finset.univ : Finset (Fin n3)).fold max (init (Shape.Idx.first hu)) (fun k => src (ix4 x y z k)) :=
  (Host.reduce_eq_fold_single (max : EReal → EReal → EReal) src init h' h hu (ix3 x y z)).trans
    (congrArg (fun f : Fin n3 → EReal => (Finset.univ : Finset (Fin n3)).fold max (init (Shape.Idx.first hu)) f)
      (funext fun k => congrArg src (lift_last4 h x y z k)))

end Cert.LibRowOps

end
-- ==== Proof.LibDotNT.lean ====
/-
  A matrix product against a transposed right operand, read at an entry.

  For dimension numbers that contract the SECOND axis of both operands (no batch axes), the product of an M × K
  array `A` by an N × K array `B` is the M × N array `A · Bᵀ`: at entry (r, c) the sum over k < K of
  `A(r, k) · B(c, k)`. This holds for a tile product into a zero accumulator and for a host product alike, the
  numbers being extended reals and every operation exact. The contraction index of the dimension numbers is a
  one-coordinate tuple; the sum is re-indexed by that coordinate.
-/
import Idealize.ShloMosaic.PureOps.Ideal.Laws
import Idealize.ShloMosaic.Lib.ValueIdx

noncomputable section

namespace Cert.LibDotNT

open Idealize.ShloMosaic Idealize.ShloMosaic.ValueIdx

variable {M K N : Nat} {φ₁ φ₂ : FTy}
  (D : DotDims (⟨2, ![M, K]⟩ : Shape) (⟨2, ![N, K]⟩ : Shape) (⟨2, ![M, N]⟩ : Shape))
  (hrank : D.contr.rank = 1) (hsize : D.contr.size ⟨0, by omega⟩ = K)
  (hlc : D.lhsContracting = [1]) (hrc : D.rhsContracting = [1])
  (hL0 : ∀ j k, (D.lhsIdx j k 0).val = (j 0).val) (hR0 : ∀ j k, (D.rhsIdx j k 0).val = (j 1).val)

include hlc hL0 in
/-- The left operand's index at output (r, c) and contraction coordinate k is (r, k). -/
theorem lhsIdx_eq (r : Fin M) (c : Fin N) (k : Fin K) :
    D.lhsIdx (ix2 r c) ((contrEquiv1 D K hrank hsize).symm k) = ix2 r k := by
  funext a; apply Fin.ext
  match a with
  | ⟨0, _⟩ => exact hL0 _ _
  | ⟨1, _⟩ => exact (D.lhsIdx_val_of_single hlc _ _).trans (contrEquiv1_symm_val D K hrank hsize k)

include hrc hR0 in
/-- The right operand's index there is (c, k): the right operand is read transposed. -/
theorem rhsIdx_eq (r : Fin M) (c : Fin N) (k : Fin K) :
    D.rhsIdx (ix2 r c) ((contrEquiv1 D K hrank hsize).symm k) = ix2 c k := by
  funext a; apply Fin.ext
  match a with
  | ⟨0, _⟩ => exact hR0 _ _
  | ⟨1, _⟩ => exact (D.rhsIdx_val_of_single hrc _ _).trans (contrEquiv1_symm_val D K hrank hsize k)

include hrank hsize hlc hrc hL0 hR0 in
/-- The sum over the contraction index is the sum over k < K of the two operands at (r, k) and (c, k). -/
theorem sum_contr (lhs : FVec Ideal (⟨2, ![M, K]⟩ : Shape) φ₁) (rhs : FVec Ideal (⟨2, ![N, K]⟩ : Shape) φ₂) (r : Fin M) (c : Fin N) :
    (∑ q : D.contr.Idx, lhs (D.lhsIdx (ix2 r c) q) * rhs (D.rhsIdx (ix2 r c) q)) = ∑ k : Fin K, lhs (ix2 r k) * rhs (ix2 c k) := by
  rw [← Equiv.sum_comp (contrEquiv1 D K hrank hsize).symm]
  refine Finset.sum_congr rfl fun k _ => ?_
  rw [lhsIdx_eq D hrank hsize hlc hL0 r c k, rhsIdx_eq D hrank hsize hrc hR0 r c k]

include hrank hsize hlc hrc hL0 hR0 in
/-- A tile product into the zero accumulator, at an entry. -/
theorem matmul_zero_apply (prec : Option ContractPrecision) (lhs : FVec Ideal (⟨2, ![M, K]⟩ : Shape) φ₁)
    (rhs : FVec Ideal (⟨2, ![N, K]⟩ : Shape) φ₂) (r : Fin M) (c : Fin N) :
    FloatOps.matmul D prec lhs rhs (constant (⟨2, ![M, N]⟩ : Shape) .f32 0x00000000#32) (ix2 r c)
      = ∑ k : Fin K, lhs (ix2 r k) * rhs (ix2 c k) :=
  (Ideal.matmul_constant_zero_apply D prec lhs rhs (ix2 r c)).trans (sum_contr D hrank hsize hlc hrc hL0 hR0 lhs rhs r c)

include hrank hsize hlc hrc hL0 hR0 in
/-- A host product, at an entry, whatever its schedule. -/
theorem dotGeneral_apply (prec : Option ContractPrecision) (sched : HostSchedule) (lhs : FVec Ideal (⟨2, ![M, K]⟩ : Shape) φ₁)
    (rhs : FVec Ideal (⟨2, ![N, K]⟩ : Shape) φ₂) (r : Fin M) (c : Fin N) :
    FloatOps.dotGeneral D prec sched lhs rhs (ix2 r c) = ∑ k : Fin K, lhs (ix2 r k) * rhs (ix2 c k) :=
  (Ideal.dotGeneral_apply D prec sched lhs rhs (ix2 r c)).trans (sum_contr D hrank hsize hlc hrc hL0 hR0 lhs rhs r c)

end Cert.LibDotNT

end
-- ==== Proof.LibPlainDot.lean ====
/-
  A plain matrix product read at an entry.  For dimension numbers that contract the left operand's second axis with the
  right operand's first (no batch axes), the product of an M × K by a K × N array at entry (r, c) is the sum over
  k < K of left(r, k) · right(k, c) — for the kernel's product into a zero accumulator and for the host's product
  alike.  The contraction index of the dimension numbers is a one-coordinate tuple; the sum is re-indexed by that
  coordinate.
-/
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}
  (D : DotDims (⟨2, ![M, K]⟩ : Shape) (⟨2, ![K, N]⟩ : Shape) (⟨2, ![M, N]⟩ : Shape))
  (hrank : D.contr.rank = 1) (hsize : D.contr.size ⟨0, by omega⟩ = K)
  (hlc : D.lhsContracting = [1]) (hrc : D.rhsContracting = [0])
  (hL0 : ∀ j k, (D.lhsIdx j k 0).val = (j 0).val) (hR1 : ∀ j k, (D.rhsIdx j k 1).val = (j 1).val)

include hlc hL0 in
/-- The left operand's index at output (r, c) and contraction coordinate k is (r, k). -/
theorem lhsIdx_eq (r : Fin M) (c : Fin N) (k : Fin K) :
    D.lhsIdx (ix2 r c) ((contrEquiv1 D K hrank hsize).symm k) = ix2 r k := by
  funext a; apply Fin.ext
  match a with
  | ⟨0, _⟩ => exact hL0 _ _
  | ⟨1, _⟩ => exact (D.lhsIdx_val_of_single hlc _ _).trans (contrEquiv1_symm_val D K hrank hsize k)

include hrc hR1 in
/-- The right operand's index there is (k, c). -/
theorem rhsIdx_eq (r : Fin M) (c : Fin N) (k : Fin K) :
    D.rhsIdx (ix2 r c) ((contrEquiv1 D K hrank hsize).symm k) = ix2 k c := by
  funext a; apply Fin.ext
  match a with
  | ⟨0, _⟩ => exact (D.rhsIdx_val_of_single hrc _ _).trans (contrEquiv1_symm_val D K hrank hsize k)
  | ⟨1, _⟩ => exact hR1 _ _

include hrank hsize hlc hrc hL0 hR1 in
/-- The sum over the contraction index is the sum over k < K of the two operands at (r, k) and (k, c). -/
theorem sum_contr (lhs : FVec Ideal (⟨2, ![M, K]⟩ : Shape) φ₁) (rhs : FVec Ideal (⟨2, ![K, N]⟩ : Shape) φ₂) (r : Fin M) (c : Fin N) :
    (∑ q : D.contr.Idx, lhs (D.lhsIdx (ix2 r c) q) * rhs (D.rhsIdx (ix2 r c) q)) = ∑ k : Fin K, lhs (ix2 r k) * rhs (ix2 k c) := by
  rw [← Equiv.sum_comp (contrEquiv1 D K hrank hsize).symm]
  refine Finset.sum_congr rfl fun k _ => ?_
  rw [lhsIdx_eq D hrank hsize hlc hL0 r c k, rhsIdx_eq D hrank hsize hrc hR1 r c k]

include hrank hsize hlc hrc hL0 hR1 in
/-- The kernel's product into the zero accumulator, at an entry. -/
theorem matmul_zero_apply (prec : Option ContractPrecision) (lhs : FVec Ideal (⟨2, ![M, K]⟩ : Shape) φ₁)
    (rhs : FVec Ideal (⟨2, ![K, N]⟩ : Shape) φ₂) (r : Fin M) (c : Fin N) :
    FloatOps.matmul D prec lhs rhs (constant (⟨2, ![M, N]⟩ : Shape) .f32 0x00000000#32) (ix2 r c)
      = ∑ k : Fin K, lhs (ix2 r k) * rhs (ix2 k c) :=
  (Ideal.matmul_constant_zero_apply D prec lhs rhs (ix2 r c)).trans (sum_contr D hrank hsize hlc hrc hL0 hR1 lhs rhs r c)

include hrank hsize hlc hrc hL0 hR1 in
/-- The host's product, at an entry, whatever its schedule. -/
theorem dotGeneral_apply (prec : Option ContractPrecision) (sched : HostSchedule) (lhs : FVec Ideal (⟨2, ![M, K]⟩ : Shape) φ₁)
    (rhs : FVec Ideal (⟨2, ![K, N]⟩ : Shape) φ₂) (r : Fin M) (c : Fin N) :
    FloatOps.dotGeneral D prec sched lhs rhs (ix2 r c) = ∑ k : Fin K, lhs (ix2 r k) * rhs (ix2 k c) :=
  (Ideal.dotGeneral_apply D prec sched lhs rhs (ix2 r c)).trans (sum_contr D hrank hsize hlc hrc hL0 hR1 lhs rhs r c)

end Cert.LibPlainDot

end
-- ==== Proof.KernelBlock.lean ====
/-
  What the kernel's body computes from one grid point's blocks.

  The body sees a 512-row block of queries, the whole 2048 × 64 keys and values of its head, and the matching
  512 × 2048 block of the mask. Entry (r, c) of the weights it stores is the softmax, over the 2048 keys, of row r's
  masked scaled scores; entry (r, d) of the output it stores is the sum over the keys j of weight (r, j) times value
  (j, d). The roundings to the narrower float format on the way into the two matrix products are the identity on
  the extended reals.
-/
import proofs.«148710_j50259707298262_2_alg».proof.Proof.Gen.KernelIdeal.Skeleton
import proofs.«148710_j50259707298262_2_alg».proof.Proof.Attn
import proofs.«148710_j50259707298262_2_alg».proof.Proof.LibRowOps
import proofs.«148710_j50259707298262_2_alg».proof.Proof.LibDotNT
import proofs.«148710_j50259707298262_2_alg».proof.Proof.LibPlainDot

noncomputable section

namespace Cert.KernelIdeal.Block

open Cert.KernelIdeal Cert.KernelIdeal.Gen Idealize.ShloMosaic Idealize.ShloMosaic.ValueIdx Cert.Attn

/-! ## The two matrix products' operand indices -/

theorem qk_lhs0 (j : S512x2048.Idx) (q : dot_S512x64_S2048x64_S512x2048_1_1_0_0_n_n.contr.Idx) :
    (dot_S512x64_S2048x64_S512x2048_1_1_0_0_n_n.lhsIdx j q 0).val = (j 0).val := by
  unfold DotDims.lhsIdx
  rw [dif_neg (show ¬(0 : Fin S512x64.rank) ∈ dot_S512x64_S2048x64_S512x2048_1_1_0_0_n_n.lhsBatch by decide),
    dif_pos (show (0 : Fin S512x64.rank) ∈ dot_S512x64_S2048x64_S512x2048_1_1_0_0_n_n.lhsNonContracting by decide)]
  rfl

theorem qk_rhs0 (j : S512x2048.Idx) (q : dot_S512x64_S2048x64_S512x2048_1_1_0_0_n_n.contr.Idx) :
    (dot_S512x64_S2048x64_S512x2048_1_1_0_0_n_n.rhsIdx j q 0).val = (j 1).val := by
  unfold DotDims.rhsIdx
  rw [dif_neg (show ¬(0 : Fin S2048x64.rank) ∈ dot_S512x64_S2048x64_S512x2048_1_1_0_0_n_n.rhsBatch by decide),
    dif_pos (show (0 : Fin S2048x64.rank) ∈ dot_S512x64_S2048x64_S512x2048_1_1_0_0_n_n.rhsNonContracting by decide)]
  rfl

theorem av_lhs0 (j : S512x64.Idx) (q : dot_S512x2048_S2048x64_S512x64_1_0_0_1_n_n.contr.Idx) :
    (dot_S512x2048_S2048x64_S512x64_1_0_0_1_n_n.lhsIdx j q 0).val = (j 0).val := by
  unfold DotDims.lhsIdx
  rw [dif_neg (show ¬(0 : Fin S512x2048.rank) ∈ dot_S512x2048_S2048x64_S512x64_1_0_0_1_n_n.lhsBatch by decide),
    dif_pos (show (0 : Fin S512x2048.rank) ∈ dot_S512x2048_S2048x64_S512x64_1_0_0_1_n_n.lhsNonContracting by decide)]
  rfl

theorem av_rhs1 (j : S512x64.Idx) (q : dot_S512x2048_S2048x64_S512x64_1_0_0_1_n_n.contr.Idx) :
    (dot_S512x2048_S2048x64_S512x64_1_0_0_1_n_n.rhsIdx j q 1).val = (j 1).val := by
  unfold DotDims.rhsIdx
  rw [dif_neg (show ¬(1 : Fin S2048x64.rank) ∈ dot_S512x2048_S2048x64_S512x64_1_0_0_1_n_n.rhsBatch by decide),
    dif_pos (show (1 : Fin S2048x64.rank) ∈ dot_S512x2048_S2048x64_S512x64_1_0_0_1_n_n.rhsNonContracting by decide)]
  rfl

/-! ## The scores of a block -/

/-- The body's masked, scaled scores, as the tree of its vector operations over the three loaded blocks. -/
def kScores {F : FTy → Type} [FloatOps F] (P0 : Vec F S1x1x512x64 .f32) (P1 : Vec F S1x1x2048x64 .f32) (P2 : Vec F S1x1x512x2048 .f32) :
    FVec F S512x2048 .f32 :=
  select (cmpf .oeq (shapeCast S512x2048 P2 shapeCasts_S1x1x512x2048_S512x2048 : FVec F S512x2048 .f32) (broadcast S512x2048 (Scalar.ofBits .f32 0x00000000#32)))
    (broadcast S512x2048 (Scalar.ofBits .f32 0xC47A0000#32))
    (mulf (matmul dot_S512x64_S2048x64_S512x2048_1_1_0_0_n_n none
        (truncf .bf16 (shapeCast S512x64 P0 shapeCasts_S1x1x512x64_S512x64 : FVec F S512x64 .f32) bitsLt_bf16_f32)
        (truncf .bf16 (shapeCast S2048x64 P1 shapeCasts_S1x1x2048x64_S2048x64 : FVec F S2048x64 .f32) bitsLt_bf16_f32)
        (constant S512x2048 .f32 0x00000000#32))
      (broadcast S512x2048 (Scalar.ofBits .f32 0x3E000000#32)))

/-- Entry (r, c): the score of query row r against key row c under the mask entry (r, c). -/
theorem kScores_apply (P0 : Vec Ideal S1x1x512x64 .f32) (P1 : Vec Ideal S1x1x2048x64 .f32) (P2 : Vec Ideal S1x1x512x2048 .f32)
    (r : Fin 512) (c : Fin 2048) :
    kScores P0 P1 P2 (ix2 r c)
      = score (fun d => P0 (ix4 (0 : Fin 1) (0 : Fin 1) r d)) (fun d => P1 (ix4 (0 : Fin 1) (0 : Fin 1) c d))
          (P2 (ix4 (0 : Fin 1) (0 : Fin 1) r c)) := by
  unfold kScores score
  show Scalar.select (Ideal.cmp .oeq (shapeCast S512x2048 P2 shapeCasts_S1x1x512x2048_S512x2048 (ix2 r c)) (Ideal.ofBits .f32 0x00000000#32))
      (Ideal.ofBits .f32 0xC47A0000#32)
      (FloatOps.matmul dot_S512x64_S2048x64_S512x2048_1_1_0_0_n_n none
          (truncf .bf16 (shapeCast S512x64 P0 shapeCasts_S1x1x512x64_S512x64) bitsLt_bf16_f32)
          (truncf .bf16 (shapeCast S2048x64 P1 shapeCasts_S1x1x2048x64_S2048x64) bitsLt_bf16_f32)
          (constant S512x2048 .f32 0x00000000#32) (ix2 r c) * Ideal.ofBits .f32 0x3E000000#32) = _
  rw [Cert.LibRowOps.shapeCast_11ab_ab_apply P2 shapeCasts_S1x1x512x2048_S512x2048 r c,
    Cert.LibDotNT.matmul_zero_apply dot_S512x64_S2048x64_S512x2048_1_1_0_0_n_n rfl rfl rfl rfl qk_lhs0 qk_rhs0 none _ _ r c]
  have e : ∀ d : Fin 64,
      (truncf .bf16 (shapeCast S512x64 P0 shapeCasts_S1x1x512x64_S512x64) bitsLt_bf16_f32 : FVec Ideal S512x64 .bf16) (ix2 r d)
        * (truncf .bf16 (shapeCast S2048x64 P1 shapeCasts_S1x1x2048x64_S2048x64) bitsLt_bf16_f32 : FVec Ideal S2048x64 .bf16) (ix2 c d)
      = P0 (ix4 (0 : Fin 1) (0 : Fin 1) r d) * P1 (ix4 (0 : Fin 1) (0 : Fin 1) c d) := fun d =>
    congrArg₂ (· * ·) (Cert.LibRowOps.shapeCast_11ab_ab_apply P0 shapeCasts_S1x1x512x64_S512x64 r d)
      (Cert.LibRowOps.shapeCast_11ab_ab_apply P1 shapeCasts_S1x1x2048x64_S2048x64 c d)
  rw [Finset.sum_congr rfl fun d _ => e d]

/-! ## The softmax of a block of scores -/

/-- The exponentials of the scores less their row maxima. -/
def kExp {F : FTy → Type} [FloatOps F] (s : FVec F S512x2048 .f32) : FVec F S512x2048 .f32 :=
  exp (subf s (broadcastTo S512x2048 (shapeCast S512x1
    (multiReduction .maximumf [1] S512 s 0xFF800000#32 reduces_S512x2048_S512 (.inl rfl) rfl) shapeCasts_S512_S512x1)
    broadcasts_S512x1_S512x2048))

/-- The exponentials divided by their row sums. -/
def kSoftmax {F : FTy → Type} [FloatOps F] (s : FVec F S512x2048 .f32) : FVec F S512x2048 .f32 :=
  divf (kExp s) (broadcastTo S512x2048 (shapeCast S512x1
    (multiReduction .add [1] S512 (kExp s) 0x00000000#32 reduces_S512x2048_S512 (.inl rfl) rfl) shapeCasts_S512_S512x1)
    broadcasts_S512x1_S512x2048)

set_option maxRecDepth 65536 in
/-- The body's weights are the softmax block of its scores block. -/
theorem pay3_eq {F : FTy → Type} [FloatOps F] (P0 : Vec F S1x1x512x64 .f32) (P1 : Vec F S1x1x2048x64 .f32) (P2 : Vec F S1x1x512x2048 .f32) :
    k0_pay3 P0 P1 P2 = kSoftmax (kScores P0 P1 P2) := rfl

/-- A row statistic kept as a column and broadcast back along the row reads, at (r, c), the statistic of row r. -/
theorem column_apply (w : FVec Ideal S512 .f32) (r : Fin 512) (c : Fin 2048) :
    broadcastTo S512x2048 (shapeCast S512x1 w shapeCasts_S512_S512x1) broadcasts_S512x1_S512x2048 (ix2 r c) = w (ix1 r) :=
  (Cert.LibRowOps.broadcastTo_a1_ab_apply _ broadcasts_S512x1_S512x2048 r c).trans
    (Cert.LibRowOps.shapeCast_a_a1_apply w shapeCasts_S512_S512x1 r (0 : Fin 1))

theorem kExp_apply (s : FVec Ideal S512x2048 .f32) (r : Fin 512) (c : Fin 2048) :
    kExp s (ix2 r c) = Ideal.exp (s (ix2 r c) - rowMax (fun c' => s (ix2 r c'))) := by
  unfold kExp
  show Ideal.exp (s (ix2 r c) - broadcastTo S512x2048 (shapeCast S512x1
    (multiReduction .maximumf [1] S512 s 0xFF800000#32 reduces_S512x2048_S512 (.inl rfl) rfl) shapeCasts_S512_S512x1)
    broadcasts_S512x1_S512x2048 (ix2 r c)) = _
  rw [column_apply]
  exact congrArg (fun m => Ideal.exp (s (ix2 r c) - m))
    (Cert.LibRowOps.rowMax_apply s 0xFF800000#32 reduces_S512x2048_S512 (.inl rfl) rfl r)

theorem kSoftmax_apply (s : FVec Ideal S512x2048 .f32) (r : Fin 512) (c : Fin 2048) :
    kSoftmax s (ix2 r c) = softmax (fun c' => s (ix2 r c')) c := by
  unfold kSoftmax softmax
  show Ideal.div (kExp s (ix2 r c)) (broadcastTo S512x2048 (shapeCast S512x1
    (multiReduction .add [1] S512 (kExp s) 0x00000000#32 reduces_S512x2048_S512 (.inl rfl) rfl) shapeCasts_S512_S512x1)
    broadcasts_S512x1_S512x2048 (ix2 r c)) = _
  rw [column_apply, kExp_apply]
  refine congrArg (Ideal.div _) ?_
  refine (Cert.LibRowOps.rowSum_apply (kExp s) 0x00000000#32 reduces_S512x2048_S512 (.inl rfl) rfl r).trans ?_
  exact Finset.sum_congr rfl fun c' _ => kExp_apply s r c'

/-- Entry (r, c) of the weights the body stores. -/
theorem pay3_apply (P0 : Vec Ideal S1x1x512x64 .f32) (P1 : Vec Ideal S1x1x2048x64 .f32) (P2 : Vec Ideal S1x1x512x2048 .f32)
    (r : Fin 512) (c : Fin 2048) :
    k0_pay3 P0 P1 P2 (ix2 r c)
      = softmax (fun c' => score (fun d => P0 (ix4 (0 : Fin 1) (0 : Fin 1) r d)) (fun d => P1 (ix4 (0 : Fin 1) (0 : Fin 1) c' d))
          (P2 (ix4 (0 : Fin 1) (0 : Fin 1) r c'))) c := by
  rw [pay3_eq, kSoftmax_apply]
  exact congrArg (fun f : Fin 2048 → EReal => softmax f c) (funext fun c' => kScores_apply P0 P1 P2 r c')

/-! ## The output of a block -/

/-- Entry (r, d) of the output the body stores: the weights of row r against column d of the values. -/
theorem pay1_apply (A : FVec Ideal S512x2048 .f32) (V2 : Vec Ideal S1x1x2048x64 .f32) (u w : Fin 1) (r : Fin 512) (d : Fin 64) :
    k0_pay1 (k0_pay2 V2) (truncf .bf16 A bitsLt_bf16_f32) (ix4 u w r d)
      = ∑ j : Fin 2048, A (ix2 r j) * V2 (ix4 (0 : Fin 1) (0 : Fin 1) j d) := by
  unfold k0_pay1 k0_pay2
  refine (Cert.LibRowOps.shapeCast_ab_11ab_apply _ shapeCasts_S512x64_S1x1x512x64 u w r d).trans ?_
  refine (Cert.LibPlainDot.matmul_zero_apply dot_S512x2048_S2048x64_S512x64_1_0_0_1_n_n rfl rfl rfl rfl av_lhs0 av_rhs1 none _ _ r d).trans ?_
  exact Finset.sum_congr rfl fun j _ => congrArg (A (ix2 r j) * ·)
    (Cert.LibRowOps.shapeCast_11ab_ab_apply V2 shapeCasts_S1x1x2048x64_S2048x64 j d)

theorem pay5_eq (P0 : Vec Ideal S1x1x512x64 .f32) (P1 : Vec Ideal S1x1x2048x64 .f32) (P2 : Vec Ideal S1x1x512x2048 .f32) :
    k0_pay5 P0 P1 P2 = truncf .bf16 (k0_pay3 P0 P1 P2) bitsLt_bf16_f32 := rfl

end Cert.KernelIdeal.Block

end
-- ==== Proof.BlockRows.lean ====
/-
  A grid point's block is a restriction of the attention specification.

  If the query block holds rows row(r) of head h of the queries, the key and value blocks hold head h whole, and the
  mask block holds rows row(r) of head h of the mask, then entry (r, c) of the weights the body stores is the
  specification's weight at (0, h, row(r), c), and entry (r, d) of the output it stores is the specification's output
  at (0, h, row(r), d): a softmax row depends only on its own query row, all the keys of its head, and its own mask row.
-/
import proofs.«148710_j50259707298262_2_alg».proof.Proof.KernelBlock

noncomputable section

namespace Cert.KernelIdeal.Block

open Cert.KernelIdeal Cert.KernelIdeal.Gen Idealize.ShloMosaic Idealize.ShloMosaic.ValueIdx Cert.Attn

variable (Q K Vv : QKV.Idx → EReal) (M : Sq.Idx → EReal)
  (P0 : Vec Ideal S1x1x512x64 .f32) (P1 : Vec Ideal S1x1x2048x64 .f32) (P2 : Vec Ideal S1x1x512x2048 .f32)
  (V2 : Vec Ideal S1x1x2048x64 .f32) (hh : Fin 16) (row : Fin 512 → Fin 2048)
  (h0 : ∀ (r : Fin 512) (d : Fin 64), P0 (ix4 (0 : Fin 1) (0 : Fin 1) r d) = Q (ix4 (0 : Fin 1) hh (row r) d))
  (h1 : ∀ (j : Fin 2048) (d : Fin 64), P1 (ix4 (0 : Fin 1) (0 : Fin 1) j d) = K (ix4 (0 : Fin 1) hh j d))
  (h2 : ∀ (r : Fin 512) (j : Fin 2048), P2 (ix4 (0 : Fin 1) (0 : Fin 1) r j) = M (ix4 (0 : Fin 1) hh (row r) j))
  (h3 : ∀ (j : Fin 2048) (d : Fin 64), V2 (ix4 (0 : Fin 1) (0 : Fin 1) j d) = Vv (ix4 (0 : Fin 1) hh j d))

include h0 h1 h2 in
/-- The weights block is the specification's weights on the block's rows. -/
theorem block_attn (r : Fin 512) (c : Fin 2048) :
    k0_pay3 P0 P1 P2 (ix2 r c) = attn Q K M (ix4 (0 : Fin 1) hh (row r) c) := by
  rw [pay3_apply, attn_apply]
  refine congrArg (fun f : Fin 2048 → EReal => softmax f c) (funext fun c' => ?_)
  unfold scores
  rw [h2 r c']
  exact congrArg₂ (fun a b => score a b (M (ix4 (0 : Fin 1) hh (row r) c'))) (funext fun d => h0 r d) (funext fun d => h1 c' d)

include h0 h1 h2 h3 in
/-- The output block is the specification's output on the block's rows. -/
theorem block_out (u w : Fin 1) (r : Fin 512) (d : Fin 64) :
    k0_pay1 (k0_pay2 V2) (k0_pay5 P0 P1 P2) (ix4 u w r d) = out Q K Vv M (ix4 (0 : Fin 1) hh (row r) d) := by
  rw [pay5_eq, pay1_apply, out_apply]
  exact Finset.sum_congr rfl fun j _ =>
    congrArg₂ (· * ·) (block_attn Q K M P0 P1 P2 hh row h0 h1 h2 r j) (h3 j d)

end Cert.KernelIdeal.Block

end
-- ==== Proof.Arrays.lean ====
/-
  From blocks to whole arrays: what the kernel leaves in its two result arrays.

  The grid has 16 × 4 points; point t works on head t / 4 and on the query rows (t mod 4) · 512 … (t mod 4) · 512 + 511.
  Its query, mask, output and weights blocks are those rows of that head; its key and value blocks are the head whole.
  So what point t writes back is exactly block t of the attention specification of the argument arrays, and the 64
  blocks tile each result array: after the run the first result is the specification's output and the second its
  weights.
-/
import proofs.«148710_j50259707298262_2_alg».proof.Proof.Gen.KernelIdeal.Value
import proofs.«148710_j50259707298262_2_alg».proof.Proof.BlockRows

noncomputable section

namespace Cert.KernelIdeal.Arrays

open Cert.KernelIdeal Cert.KernelIdeal.Gen Idealize.ShloMosaic Idealize.ShloMosaic.TcCoe Idealize.SL.Sem
open Idealize.ShloMosaic.ValueIdx Cert.Attn
open Idealize.ShloMosaic.Pipeline (Dat)

variable (m : (ℓ : Loc nD τ sig) → Buf (Elt Ideal) ℓ) (ρ : Dev nD → PrngReg)

theorem hz : (![0, 0, 0, 0] : Fin 4 → Nat) = fun _ => 0 := funext fun a => by fin_cases a <;> rfl

/-! ## What the body leaves in its two output buffers, entry by entry -/

/-- The weights buffer at (u, w, r, c) is the body's weight (r, c). -/
theorem out5_apply (x0 : Vec Ideal S1x1x512x64 .f32) (x1 x2 : Vec Ideal S1x1x2048x64 .f32) (x3 : Vec Ideal S1x1x512x2048 .f32)
    (u w : Fin 1) (r : Fin 512) (c : Fin 2048) :
    out0_5 x0 x1 x2 x3 (ix4 u w r c) = k0_pay3 x0 x1 x3 (ix2 r c) := by
  unfold out0_5
  rw [View.ld_unit_zero (S := S1x1x512x64) hz, View.ld_unit_zero (S := S1x1x2048x64) hz, View.ld_unit_zero (S := S1x1x512x2048) hz]
  refine (Value.canon5_eq x0 x1 x3 (ix4 u w r c)).trans ?_
  show k0_pay3 x0 x1 x3 (Value.ix5_0 (ix4 u w r c)) = _
  exact congrArg (k0_pay3 x0 x1 x3) (funext fun a => by match a with | ⟨0, _⟩ => rfl | ⟨1, _⟩ => rfl)

/-- The output buffer at (u, w, r, d) is the body's weights of row r against column d of the value block. -/
theorem out4_apply (x0 : Vec Ideal S1x1x512x64 .f32) (x1 x2 : Vec Ideal S1x1x2048x64 .f32) (x3 : Vec Ideal S1x1x512x2048 .f32)
    (u w : Fin 1) (r : Fin 512) (d : Fin 64) :
    out0_4 x0 x1 x2 x3 (ix4 u w r d) = k0_pay1 (k0_pay2 x2) (k0_pay5 x0 x1 x3) (ix4 u w r d) := by
  unfold out0_4
  rw [View.canon_unit_zero hz,
    View.ld_unit_zero (S := S1x1x512x64) hz, View.ld_unit_zero (S := S1x1x2048x64) hz, View.ld_unit_zero (S := S1x1x2048x64) hz,
    View.ld_unit_zero (S := S1x1x512x2048) hz]

/-! ## The grid's index maps -/

/-- The printed index maps, decided over the 64 points: head t / 4; row block t mod 4 for the windows that move with
    the query rows, 0 for the keys and the values. -/
theorem idx_facts : ∀ t : Fin cfg0.N,
    (win0_0.index t (0 : Fin 4) = 0 ∧ win0_0.index t (1 : Fin 4) = t.val / 4 ∧ win0_0.index t (2 : Fin 4) = t.val % 4 ∧ win0_0.index t (3 : Fin 4) = 0)
    ∧ (win0_1.index t (0 : Fin 4) = 0 ∧ win0_1.index t (1 : Fin 4) = t.val / 4 ∧ win0_1.index t (2 : Fin 4) = 0 ∧ win0_1.index t (3 : Fin 4) = 0)
    ∧ (win0_2.index t (0 : Fin 4) = 0 ∧ win0_2.index t (1 : Fin 4) = t.val / 4 ∧ win0_2.index t (2 : Fin 4) = 0 ∧ win0_2.index t (3 : Fin 4) = 0)
    ∧ (win0_3.index t (0 : Fin 4) = 0 ∧ win0_3.index t (1 : Fin 4) = t.val / 4 ∧ win0_3.index t (2 : Fin 4) = t.val % 4 ∧ win0_3.index t (3 : Fin 4) = 0)
    ∧ (win0_4.index t (0 : Fin 4) = 0 ∧ win0_4.index t (1 : Fin 4) = t.val / 4 ∧ win0_4.index t (2 : Fin 4) = t.val % 4 ∧ win0_4.index t (3 : Fin 4) = 0)
    ∧ (win0_5.index t (0 : Fin 4) = 0 ∧ win0_5.index t (1 : Fin 4) = t.val / 4 ∧ win0_5.index t (2 : Fin 4) = t.val % 4 ∧ win0_5.index t (3 : Fin 4) = 0) :=
  (by decide +kernel : ∀ t : Fin grid0.N, _)

/-- Every (head, row block) pair is some point's. -/
theorem idx_onto : ∀ (q1 : Fin 16) (q2 : Fin 4), ∃ t : Fin cfg0.N,
    win0_4.index t = ![0, q1.val, q2.val, 0] ∧ win0_5.index t = ![0, q1.val, q2.val, 0] :=
  (by decide +kernel : ∀ (q1 : Fin 16) (q2 : Fin 4), ∃ t : Fin grid0.N,
    win0_4.index t = ![0, q1.val, q2.val, 0] ∧ win0_5.index t = ![0, q1.val, q2.val, 0])

/-! ## The input blocks are rows of the argument arrays -/

section Point

variable (c : Dev nD) (t : Fin cfg0.N)

theorem t_lt : t.val < 64 := lt_of_lt_of_eq t.isLt N_0

/-- The head of point t. -/
def head : Fin 16 := ⟨t.val / 4, by have := t_lt t; omega⟩
/-- The array row of the block row r at point t. -/
def rowOf (r : Fin 512) : Fin 2048 := ⟨t.val % 4 * 512 + r.val, by have := r.isLt; omega⟩

theorem q_block (r : Fin 512) (d : Fin 64) :
    iblk m c 0 t (ix4 (0 : Fin 1) (0 : Fin 1) r d) = V m c main_arg0 (ix4 (0 : Fin 1) (head t) (rowOf t r) d) := by
  obtain ⟨⟨a0, a1, a2, a3⟩, -⟩ := idx_facts t
  show V m c main_arg0 (((cfg0.win 0).blk t).view.emb (ix4 (0 : Fin 1) (0 : Fin 1) r d)) = _
  refine congrArg (V m c main_arg0) (funext fun a => Fin.ext ?_)
  match a with
  | ⟨0, _⟩ => show win0_0.index t (0 : Fin 4) * 1 + 1 * 0 = 0; omega
  | ⟨1, _⟩ => show win0_0.index t (1 : Fin 4) * 1 + 1 * 0 = t.val / 4; omega
  | ⟨2, _⟩ => show win0_0.index t (2 : Fin 4) * 512 + 1 * r.val = t.val % 4 * 512 + r.val; omega
  | ⟨3, _⟩ => show win0_0.index t (3 : Fin 4) * 64 + 1 * d.val = d.val; omega

theorem k_block (j : Fin 2048) (d : Fin 64) :
    iblk m c 1 t (ix4 (0 : Fin 1) (0 : Fin 1) j d) = V m c main_arg1 (ix4 (0 : Fin 1) (head t) j d) := by
  obtain ⟨-, ⟨a0, a1, a2, a3⟩, -⟩ := idx_facts t
  show V m c main_arg1 (((cfg0.win 1).blk t).view.emb (ix4 (0 : Fin 1) (0 : Fin 1) j d)) = _
  refine congrArg (V m c main_arg1) (funext fun a => Fin.ext ?_)
  match a with
  | ⟨0, _⟩ => show win0_1.index t (0 : Fin 4) * 1 + 1 * 0 = 0; omega
  | ⟨1, _⟩ => show win0_1.index t (1 : Fin 4) * 1 + 1 * 0 = t.val / 4; omega
  | ⟨2, _⟩ => show win0_1.index t (2 : Fin 4) * 2048 + 1 * j.val = j.val; omega
  | ⟨3, _⟩ => show win0_1.index t (3 : Fin 4) * 64 + 1 * d.val = d.val; omega

theorem v_block (j : Fin 2048) (d : Fin 64) :
    iblk m c 2 t (ix4 (0 : Fin 1) (0 : Fin 1) j d) = V m c main_arg2 (ix4 (0 : Fin 1) (head t) j d) := by
  obtain ⟨-, -, ⟨a0, a1, a2, a3⟩, -⟩ := idx_facts t
  show V m c main_arg2 (((cfg0.win 2).blk t).view.emb (ix4 (0 : Fin 1) (0 : Fin 1) j d)) = _
  refine congrArg (V m c main_arg2) (funext fun a => Fin.ext ?_)
  match a with
  | ⟨0, _⟩ => show win0_2.index t (0 : Fin 4) * 1 + 1 * 0 = 0; omega
  | ⟨1, _⟩ => show win0_2.index t (1 : Fin 4) * 1 + 1 * 0 = t.val / 4; omega
  | ⟨2, _⟩ => show win0_2.index t (2 : Fin 4) * 2048 + 1 * j.val = j.val; omega
  | ⟨3, _⟩ => show win0_2.index t (3 : Fin 4) * 64 + 1 * d.val = d.val; omega

theorem mask_block (r : Fin 512) (j : Fin 2048) :
    iblk m c 3 t (ix4 (0 : Fin 1) (0 : Fin 1) r j) = V m c main_arg3 (ix4 (0 : Fin 1) (head t) (rowOf t r) j) := by
  obtain ⟨-, -, -, ⟨a0, a1, a2, a3⟩, -⟩ := idx_facts t
  show V m c main_arg3 (((cfg0.win 3).blk t).view.emb (ix4 (0 : Fin 1) (0 : Fin 1) r j)) = _
  refine congrArg (V m c main_arg3) (funext fun a => Fin.ext ?_)
  match a with
  | ⟨0, _⟩ => show win0_3.index t (0 : Fin 4) * 1 + 1 * 0 = 0; omega
  | ⟨1, _⟩ => show win0_3.index t (1 : Fin 4) * 1 + 1 * 0 = t.val / 4; omega
  | ⟨2, _⟩ => show win0_3.index t (2 : Fin 4) * 512 + 1 * r.val = t.val % 4 * 512 + r.val; omega
  | ⟨3, _⟩ => show win0_3.index t (3 : Fin 4) * 2048 + 1 * j.val = j.val; omega

/-! ## What point t writes back -/

/-- Point t writes back block t of the specification's weights. -/
theorem flushed5_eq :
    (dats m 0 c).flushed 5 t
      = ((cfg0.win 5).blk t).view.read (Elt Ideal) (attn (V m c main_arg0) (V m c main_arg1) (V m c main_arg3)) := by
  obtain ⟨-, -, -, -, -, ⟨a0, a1, a2, a3⟩⟩ := idx_facts t
  rw [Value.flushed5]
  funext y
  obtain ⟨u, w, r, cc, rfl⟩ : ∃ (u w : Fin 1) (r : Fin 512) (cc : Fin 2048), y = ix4 u w r cc := ⟨y 0, y 1, y 2, y 3, eq_ix4 y⟩
  show out0_5 (iblk m c 0 t) (iblk m c 1 t) (iblk m c 2 t) (iblk m c 3 t) (ix4 u w r cc)
    = attn (V m c main_arg0) (V m c main_arg1) (V m c main_arg3) (((cfg0.win 5).blk t).view.emb (ix4 u w r cc))
  have hemb : ((cfg0.win 5).blk t).view.emb (ix4 u w r cc) = ix4 (0 : Fin 1) (head t) (rowOf t r) cc := by
    have hu : u.val < 1 := u.isLt
    have hw : w.val < 1 := w.isLt
    funext a; apply Fin.ext
    match a with
    | ⟨0, _⟩ => show win0_5.index t (0 : Fin 4) * 1 + 1 * u.val = 0; omega
    | ⟨1, _⟩ => show win0_5.index t (1 : Fin 4) * 1 + 1 * w.val = t.val / 4; omega
    | ⟨2, _⟩ => show win0_5.index t (2 : Fin 4) * 512 + 1 * r.val = t.val % 4 * 512 + r.val; omega
    | ⟨3, _⟩ => show win0_5.index t (3 : Fin 4) * 2048 + 1 * cc.val = cc.val; omega
  rw [hemb]
  refine (out5_apply _ _ _ _ u w r cc).trans ?_
  exact Block.block_attn (V m c main_arg0) (V m c main_arg1) (V m c main_arg3) (iblk m c 0 t) (iblk m c 1 t) (iblk m c 3 t)
    (head t) (rowOf t) (q_block m c t) (k_block m c t) (mask_block m c t) r cc

/-- Point t writes back block t of the specification's output. -/
theorem flushed4_eq :
    (dats m 0 c).flushed 4 t
      = ((cfg0.win 4).blk t).view.read (Elt Ideal)
          (out (V m c main_arg0) (V m c main_arg1) (V m c main_arg2) (V m c main_arg3)) := by
  obtain ⟨-, -, -, -, ⟨a0, a1, a2, a3⟩, -⟩ := idx_facts t
  rw [Value.flushed4]
  funext y
  obtain ⟨u, w, r, d, rfl⟩ : ∃ (u w : Fin 1) (r : Fin 512) (d : Fin 64), y = ix4 u w r d := ⟨y 0, y 1, y 2, y 3, eq_ix4 y⟩
  show out0_4 (iblk m c 0 t) (iblk m c 1 t) (iblk m c 2 t) (iblk m c 3 t) (ix4 u w r d)
    = out (V m c main_arg0) (V m c main_arg1) (V m c main_arg2) (V m c main_arg3) (((cfg0.win 4).blk t).view.emb (ix4 u w r d))
  have hemb : ((cfg0.win 4).blk t).view.emb (ix4 u w r d) = ix4 (0 : Fin 1) (head t) (rowOf t r) d := by
    have hu : u.val < 1 := u.isLt
    have hw : w.val < 1 := w.isLt
    funext a; apply Fin.ext
    match a with
    | ⟨0, _⟩ => show win0_4.index t (0 : Fin 4) * 1 + 1 * u.val = 0; omega
    | ⟨1, _⟩ => show win0_4.index t (1 : Fin 4) * 1 + 1 * w.val = t.val / 4; omega
    | ⟨2, _⟩ => show win0_4.index t (2 : Fin 4) * 512 + 1 * r.val = t.val % 4 * 512 + r.val; omega
    | ⟨3, _⟩ => show win0_4.index t (3 : Fin 4) * 64 + 1 * d.val = d.val; omega
  rw [hemb]
  refine (out4_apply _ _ _ _ u w r d).trans ?_
  exact Block.block_out (V m c main_arg0) (V m c main_arg1) (V m c main_arg2) (V m c main_arg3)
    (iblk m c 0 t) (iblk m c 1 t) (iblk m c 3 t) (iblk m c 2 t)
    (head t) (rowOf t) (q_block m c t) (k_block m c t) (mask_block m c t) (v_block m c t) u w r d

end Point

/-! ## The blocks tile the arrays -/

/-- An index of the weights array is in point t's block iff each coordinate is in the block's range on its axis. -/
theorem mem_blk5 (t : Fin cfg0.N) (i : S1x16x2048x2048.Idx) :
    i ∈ ((cfg0.win 5).blk t).view.set ↔ ∀ a : Fin 4, win0_5.index t a * S1x1x512x2048.size a ≤ (i a).val
      ∧ (i a).val < win0_5.index t a * S1x1x512x2048.size a + S1x1x512x2048.size a := by
  show i ∈ ((View.whole main_v0_1).slice (win0_5.rect t)).set ↔ _
  rw [View.set_slice_whole, Rect.mem_set_unit]
  exact Iff.rfl

/-- The same for the output array. -/
theorem mem_blk4 (t : Fin cfg0.N) (i : S1x16x2048x64.Idx) :
    i ∈ ((cfg0.win 4).blk t).view.set ↔ ∀ a : Fin 4, win0_4.index t a * S1x1x512x64.size a ≤ (i a).val
      ∧ (i a).val < win0_4.index t a * S1x1x512x64.size a + S1x1x512x64.size a := by
  show i ∈ ((View.whole main_v0_0).slice (win0_4.rect t)).set ↔ _
  rw [View.set_slice_whole, Rect.mem_set_unit]
  exact Iff.rfl

/-- Every index of the weights array is in the block of the point of its head and row block. -/
theorem cover5 (i : S1x16x2048x2048.Idx) :
    ∃ t : Fin cfg0.N, (cfg0.win 5).flush t = true ∧ i ∈ ((cfg0.win 5).blk t).view.set := by
  have hi0 : (i 0).val < 1 := (i 0).isLt
  have hi1 : (i 1).val < 16 := (i 1).isLt
  have hi2 : (i 2).val < 2048 := (i 2).isLt
  have hi3 : (i 3).val < 2048 := (i 3).isLt
  obtain ⟨t, -, ht⟩ := idx_onto ⟨(i 1).val, hi1⟩ ⟨(i 2).val / 512, by omega⟩
  have q0 : win0_5.index t (0 : Fin 4) = 0 := congrFun ht 0
  have q1 : win0_5.index t (1 : Fin 4) = (i 1).val := congrFun ht 1
  have q2 : win0_5.index t (2 : Fin 4) = (i 2).val / 512 := congrFun ht 2
  have q3 : win0_5.index t (3 : Fin 4) = 0 := congrFun ht 3
  refine ⟨t, flush0_5 t, ?_⟩
  rw [mem_blk5]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 1 ≤ (i 1).val ∧ (i 1).val < win0_5.index t (1 : Fin 4) * 1 + 1; omega
  | ⟨2, _⟩ => show win0_5.index t (2 : Fin 4) * 512 ≤ (i 2).val ∧ (i 2).val < win0_5.index t (2 : Fin 4) * 512 + 512; omega
  | ⟨3, _⟩ => show win0_5.index t (3 : Fin 4) * 2048 ≤ (i 3).val ∧ (i 3).val < win0_5.index t (3 : Fin 4) * 2048 + 2048; omega

/-- Every index of the output array likewise. -/
theorem cover4 (i : S1x16x2048x64.Idx) :
    ∃ t : Fin cfg0.N, (cfg0.win 4).flush t = true ∧ i ∈ ((cfg0.win 4).blk t).view.set := by
  have hi0 : (i 0).val < 1 := (i 0).isLt
  have hi1 : (i 1).val < 16 := (i 1).isLt
  have hi2 : (i 2).val < 2048 := (i 2).isLt
  have hi3 : (i 3).val < 64 := (i 3).isLt
  obtain ⟨t, ht, -⟩ := idx_onto ⟨(i 1).val, hi1⟩ ⟨(i 2).val / 512, by omega⟩
  have q0 : win0_4.index t (0 : Fin 4) = 0 := congrFun ht 0
  have q1 : win0_4.index t (1 : Fin 4) = (i 1).val := congrFun ht 1
  have q2 : win0_4.index t (2 : Fin 4) = (i 2).val / 512 := congrFun ht 2
  have q3 : win0_4.index t (3 : Fin 4) = 0 := congrFun ht 3
  refine ⟨t, flush0_4 t, ?_⟩
  rw [mem_blk4]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 512 ≤ (i 2).val ∧ (i 2).val < win0_4.index t (2 : Fin 4) * 512 + 512; omega
  | ⟨3, _⟩ => show win0_4.index t (3 : Fin 4) * 64 ≤ (i 3).val ∧ (i 3).val < win0_4.index t (3 : Fin 4) * 64 + 64; omega

/-! ## The arrays after the run -/

/-- The weights array ends holding the specification's weights of the argument arrays. -/
theorem final5 (c : Dev nD) :
    (dats m 0 c).arrAt 5 cfg0.N = attn (V m c main_arg0) (V m c main_arg1) (V m c main_arg3) :=
  (dats m 0 c).arrAt_eq_of_cover 5 _ (fun t _ => flushed5_eq m c t) cover5

/-- The output array ends holding the specification's output of the argument arrays. -/
theorem final4 (c : Dev nD) :
    (dats m 0 c).arrAt 4 cfg0.N = out (V m c main_arg0) (V m c main_arg1) (V m c main_arg2) (V m c main_arg3) :=
  (dats m 0 c).arrAt_eq_of_cover 4 _ (fun t _ => flushed4_eq m c t) cover4

/-- The kernel's run: both results at the specification of the arguments, the arguments unchanged. -/
theorem run : θ_run defs (onTc (τ := τ) (main (F := Ideal))) ⟨m, fun _ => 0, ρ⟩ fun r => ∀ c : Dev nD,
      r.2.mem ((c : Thread nD τ).loc main_v0_0) = out (m ((c : Thread nD τ).loc main_arg0)) (m ((c : Thread nD τ).loc main_arg1))
          (m ((c : Thread nD τ).loc main_arg2)) (m ((c : Thread nD τ).loc main_arg3))
      ∧ r.2.mem ((c : Thread nD τ).loc main_v0_1) = attn (m ((c : Thread nD τ).loc main_arg0)) (m ((c : Thread nD τ).loc main_arg1))
          (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩)
    (Value.run_blocks m ρ)

end Cert.KernelIdeal.Arrays

end
-- ==== Proof.RefValue.lean ====
/-
  The reference computes the attention specification.

  Read one operation at a time at an index (b, h, i, j): the product of the queries with the keys contracted over d,
  scaled by 0.125 and masked to −1000, is a score; the reduction by max over j from −∞, followed by one more max with
  −∞, is the row maximum; the exponential of the difference, its sum over j from 0, and their quotient are the softmax
  of the row; and the last product contracts the weights with the values over j.
-/
import proofs.«148710_j50259707298262_2_alg».proof.Proof.Gen.ReferenceIdeal.Read
import proofs.«148710_j50259707298262_2_alg».proof.Proof.Attn
import proofs.«148710_j50259707298262_2_alg».proof.Proof.LibRowOps

noncomputable section

namespace Cert.ReferenceIdeal.RefValue

open Cert.ReferenceIdeal Cert.ReferenceIdeal.Gen Cert.ReferenceIdeal.Read Idealize.ShloMosaic Idealize.ShloMosaic.ValueIdx Cert.Attn

variable (Q K V : (⟨S1x16x2048x64, .f32⟩ : BufTy).Contents (Elt Ideal)) (M : (⟨S1x16x2048x2048, .f32⟩ : BufTy).Contents (Elt Ideal))

/-- The masked, scaled product of queries and keys at (b, h, i, j) is the score. -/
theorem v5_apply (b : Fin 1) (h : Fin 16) (i j : Fin 2048) :
    val_main_v5 (F := Ideal) Q K M (ix4 b h i j) = scores Q K M b h i j := by
  have el : ∀ d : Fin 64, lidx_main_v0 (ix4 b h i j) d = ix4 b h i d := fun d => funext fun a => by
    match a with | ⟨0, _⟩ => rfl | ⟨1, _⟩ => rfl | ⟨2, _⟩ => rfl | ⟨3, _⟩ => rfl
  have er : ∀ d : Fin 64, ridx_main_v0 (ix4 b h i j) d = ix4 b h j d := fun d => funext fun a => by
    match a with | ⟨0, _⟩ => rfl | ⟨1, _⟩ => rfl | ⟨2, _⟩ => rfl | ⟨3, _⟩ => rfl
  rw [val_main_v5_apply, val_main_v4_apply, val_main_v3_apply, val_main_cst_0_apply, val_main_call0_v0_apply, val_main_cst_1_apply,
    val_main_v2_apply, val_main_v0_apply, val_main_v1_apply, val_main_cst_apply]
  simp only [el, er]
  rfl

/-- The reduction by max over j, from −∞, is the row maximum. -/
theorem v6_apply (b : Fin 1) (h : Fin 16) (i : Fin 2048) :
    val_main_v6 (F := Ideal) Q K M (ix3 b h i) = rowMax (scores Q K M b h i) := by
  unfold val_main_v6
  refine (Cert.LibRowOps.hostMax_last4_apply (val_main_v5 (F := Ideal) Q K M) (val_main_cst_2 (F := Ideal))
    reducesTo_S1x16x2048x2048_S1x16x2048_d3 (by decide) h_S_ b h i).trans ?_
  show (Finset.univ : Finset (Fin 2048)).fold max negInf (fun j => val_main_v5 (F := Ideal) Q K M (ix4 b h i j)) = _
  exact congrArg (fun f : Fin 2048 → EReal => (Finset.univ : Finset (Fin 2048)).fold max negInf f)
    (funext fun j => v5_apply Q K M b h i j)

/-- One more max with −∞ leaves it. -/
theorem v8_apply (b : Fin 1) (h : Fin 16) (i : Fin 2048) :
    val_main_v8 (F := Ideal) Q K M (ix3 b h i) = rowMax (scores Q K M b h i) := by
  rw [val_main_v8_apply, val_main_v7_apply, val_main_cst_3_apply, v6_apply]
  exact max_negInf_rowMax _

/-- The exponential of a score less its row's maximum. -/
theorem v12_apply (b : Fin 1) (h : Fin 16) (i j : Fin 2048) :
    val_main_v12 (F := Ideal) Q K M (ix4 b h i j) = Ideal.exp (scores Q K M b h i j - rowMax (scores Q K M b h i)) := by
  have e : idx_main_v9 (idx_main_v10 (ix4 b h i j)) = ix3 b h i := funext fun a => Fin.ext (by
    match a with
    | ⟨0, _⟩ => show 0 = b.val; omega
    | ⟨1, _⟩ => rfl
    | ⟨2, _⟩ => rfl)
  rw [val_main_v12_apply, val_main_v11_apply, v5_apply, val_main_v10_apply, val_main_v9_apply, e, v8_apply]
  rfl

/-- Their sum over the row, from 0. -/
theorem v13_apply (b : Fin 1) (h : Fin 16) (i : Fin 2048) :
    val_main_v13 (F := Ideal) Q K M (ix3 b h i)
      = ∑ j : Fin 2048, Ideal.exp (scores Q K M b h i j - rowMax (scores Q K M b h i)) := by
  rw [val_main_v13_apply, val_main_cst_4_apply]
  show Ideal.ofBits .f32 0x00000000#32 + _ = _
  rw [Ideal.ofBits_zero_f32, zero_add]
  refine Finset.sum_congr rfl fun j _ => ?_
  have e : idx_main_v13 (ix3 b h i) j = ix4 b h i j := funext fun a => by
    match a with | ⟨0, _⟩ => rfl | ⟨1, _⟩ => rfl | ⟨2, _⟩ => rfl | ⟨3, _⟩ => rfl
  rw [e, v12_apply]

/-- The quotient is the attention weight. -/
theorem v16_apply (b : Fin 1) (h : Fin 16) (i j : Fin 2048) :
    val_main_v16 (F := Ideal) Q K M (ix4 b h i j) = attn Q K M (ix4 b h i j) := by
  have e : idx_main_v14 (idx_main_v15 (ix4 b h i j)) = ix3 b h i := funext fun a => Fin.ext (by
    match a with
    | ⟨0, _⟩ => show 0 = b.val; omega
    | ⟨1, _⟩ => rfl
    | ⟨2, _⟩ => rfl)
  rw [val_main_v16_apply, v12_apply, val_main_v15_apply, val_main_v14_apply, e, v13_apply]
  rfl

/-- The reference's second result is the attention weights. -/
theorem ref_attn : val_main_v16 (F := Ideal) Q K M = attn Q K M :=
  funext fun x => by rw [eq_ix4 x]; exact v16_apply Q K M _ _ _ _

/-- The weights contracted with the values over j. -/
theorem v17_apply (b : Fin 1) (h : Fin 16) (i : Fin 2048) (d : Fin 64) :
    val_main_v17 (F := Ideal) Q K V M (ix4 b h i d) = out Q K V M (ix4 b h i d) := by
  rw [val_main_v17_apply, out_apply]
  refine Finset.sum_congr rfl fun j _ => ?_
  have el : lidx_main_v17 (ix4 b h i d) j = ix4 b h i j := funext fun a => by
    match a with | ⟨0, _⟩ => rfl | ⟨1, _⟩ => rfl | ⟨2, _⟩ => rfl | ⟨3, _⟩ => rfl
  have er : ridx_main_v17 (ix4 b h i d) j = ix4 b h j d := funext fun a => by
    match a with | ⟨0, _⟩ => rfl | ⟨1, _⟩ => rfl | ⟨2, _⟩ => rfl | ⟨3, _⟩ => rfl
  rw [el, er, v16_apply]

/-- The reference's first result is the attention output. -/
theorem ref_out : val_main_v17 (F := Ideal) Q K V M = out Q K V M :=
  funext fun x => by rw [eq_ix4 x]; exact v17_apply Q K V M _ _ _ _

end Cert.ReferenceIdeal.RefValue

end
-- ==== Proof.lean ====
/-
  Masked scaled-dot-product attention: a tiled kernel against the plain formula.

  Both programs take queries, keys and values of shape 1 × 16 × 2048 × 64 and a mask of shape 1 × 16 × 2048 × 2048 and
  return the attention output and the attention weights. Read on the extended reals, with every operation exact,
  both compute
      score(h,i,j) = −1000 where mask(h,i,j) = 0, else (∑_d q(h,i,d) · k(h,j,d)) · 0.125,
      attn(h,i,j)  = exp(score(h,i,j) − m(h,i)) / ∑_j' exp(score(h,i,j') − m(h,i)),   m(h,i) = max_j score(h,i,j),
      out(h,i,d)   = ∑_j attn(h,i,j) · v(h,j,d)
  (Proof/Attn.lean). The reference does so on whole arrays, one operation after another (Proof/RefValue.lean; its
  extra maximum with −∞ changes nothing, a row maximum taken from −∞ being at least −∞). The kernel does so 512 query
  rows of one head at a time: a softmax row needs only its own query row, its own mask row and the keys of its head,
  all of which the grid point's blocks hold (Proof/KernelBlock.lean, Proof/BlockRows.lean), and the 64 blocks tile the
  two result arrays (Proof/Arrays.lean). The scale 0.125 and the fill −1000 are the same float words in both
  programs, and no algebraic law beyond reading both sides as the same sums is used, so the inputs' finiteness is
  never needed. The kernel's roundings to a narrower format before its two matrix products are the identity on the
  extended reals; the idealization pass recorded no rewrite of the kernel, so what it has to preserve is the empty
  conjunction.
-/
import proofs.«148710_j50259707298262_2_alg».proof.Defs
import proofs.«148710_j50259707298262_2_alg».proof.Proof.Gen.Kernel
import proofs.«148710_j50259707298262_2_alg».proof.Proof.Gen.Kernel.Skeleton
import proofs.«148710_j50259707298262_2_alg».proof.Proof.Gen.Kernel.Launch
import proofs.«148710_j50259707298262_2_alg».proof.Proof.Gen.Kernel.Points
import proofs.«148710_j50259707298262_2_alg».proof.Proof.Gen.Kernel.Frame
import proofs.«148710_j50259707298262_2_alg».proof.Proof.Gen.KernelIdeal
import proofs.«148710_j50259707298262_2_alg».proof.Proof.Gen.KernelIdeal.Skeleton
import proofs.«148710_j50259707298262_2_alg».proof.Proof.Gen.KernelIdeal.Launch
import proofs.«148710_j50259707298262_2_alg».proof.Proof.Gen.KernelIdeal.Points
import proofs.«148710_j50259707298262_2_alg».proof.Proof.Gen.KernelIdeal.Frame
import proofs.«148710_j50259707298262_2_alg».proof.Proof.Gen.ReferenceIdeal
import proofs.«148710_j50259707298262_2_alg».proof.Proof.Gen.Pre_finite_inputs
import proofs.«148710_j50259707298262_2_alg».proof.Proof.Gen.KernelIdeal.Value
import proofs.«148710_j50259707298262_2_alg».proof.Proof.Gen.ReferenceIdeal.Run
import proofs.«148710_j50259707298262_2_alg».proof.Proof.Gen.ReferenceIdeal.Read
import proofs.«148710_j50259707298262_2_alg».proof.Proof.Arrays
import proofs.«148710_j50259707298262_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as they were: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the four arguments both programs end with the attention output and the attention
    weights of those arguments. -/
theorem algebraic : Cert.algebraic_KernelIdeal_ReferenceIdeal := by
  intro m ρ m' ρ' _ hagree
  refine ⟨_, _, Cert.KernelIdeal.Arrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.1, (hagree c).2.2.1, (hagree c).2.2.2]
    exact (Cert.ReferenceIdeal.Read.val_main_v17_eq _ _ _ _).trans (Cert.ReferenceIdeal.RefValue.ref_out _ _ _ _)
  · rw [(hagree c).1, (hagree c).2.1, (hagree c).2.2.2]
    exact (Cert.ReferenceIdeal.Read.val_main_v16_eq _ _ _).trans (Cert.ReferenceIdeal.RefValue.ref_attn _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
